-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34_1)) (v1 : (c : Dev Cert.KernelIdeal.nD) → Buf (Elt Ideal) ((c.tc : Thread Cert.KernelIdeal.nD Cert.KernelIdeal.τ).loc Cert.KernelIdeal.main_v34_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_1) = v0 c
          ∧ r.2.mem ((c.tc : Thread Cert.KernelIdeal.nD Cert.KernelIdeal.τ).loc Cert.KernelIdeal.main_v34_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S64x16 .f32) (main_arg7 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x16 .f32 := Host.absf main_arg6
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x64 .f32) (main_arg1 : IVec S1200000 32) (main_arg2 : IVec S1200000 32) (main_arg3 : FVec F S64x64 .f32) (main_arg4 : FVec F S64x64 .f32) (main_arg5 : FVec F S64x64 .f32) (main_arg6 : FVec F S64x16 .f32) (main_arg7 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_v13 main_v16
-- ==== Kernel.lean ====
abbrev S100000x64 : Shape := ⟨2, ![100000, 64]⟩
abbrev S1200000 : Shape := ⟨1, ![1200000]⟩
abbrev S64x64 : Shape := ⟨2, ![64, 64]⟩
abbrev S64x16 : Shape := ⟨2, ![64, 16]⟩
abbrev S16 : Shape := ⟨1, ![16]⟩
abbrev S_ : Shape := ⟨0, ![]⟩
abbrev S1200000x1 : Shape := ⟨2, ![1200000, 1]⟩
abbrev S1200000x64 : Shape := ⟨2, ![1200000, 64]⟩
abbrev S2000x64 : Shape := ⟨2, ![2000, 64]⟩
abbrev S1x16 : Shape := ⟨2, ![1, 16]⟩
abbrev S100000x16 : Shape := ⟨2, ![100000, 16]⟩
abbrev S2000x16 : Shape := ⟨2, ![2000, 16]⟩
abbrev S2000 : Shape := ⟨1, ![2000]⟩
abbrev S2000x1 : Shape := ⟨2, ![2000, 1]⟩

abbrev nBuf : Space → Nat
  | .hbm => 53
  | .vmem => 29
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x16, .f32⟩
  | .hbm, ⟨7, _⟩ => ⟨S16, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S_, .f32⟩
  | .hbm, ⟨18, _⟩ => ⟨S100000x64, .f32⟩
  | .hbm, ⟨19, _⟩ => ⟨S1200000x1, .i32⟩
  | .hbm, ⟨20, _⟩ => ⟨S100000x64, .f32⟩
  | .hbm, ⟨21, _⟩ => ⟨S100000x64, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000x64, .f32⟩
  | .hbm, ⟨31, _⟩ => ⟨S_, .f32⟩
  | .hbm, ⟨32, _⟩ => ⟨S100000x64, .f32⟩
  | .hbm, ⟨33, _⟩ => ⟨S1200000x1, .i32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1200000, .i32⟩
  | .hbm, ⟨38, _⟩ => ⟨S1200000, .i1⟩
  | .hbm, ⟨39, _⟩ => ⟨S_, .i32⟩
  | .hbm, ⟨40, _⟩ => ⟨S1200000, .i32⟩
  | .hbm, ⟨41, _⟩ => ⟨S1200000, .i32⟩
  | .hbm, ⟨42, _⟩ => ⟨S1200000, .i32⟩
  | .hbm, ⟨43, _⟩ => ⟨S1200000x1, .i32⟩
  | .hbm, ⟨44, _⟩ => ⟨S1200000x64, .f32⟩
  | .hbm, ⟨45, _⟩ => ⟨S_, .f32⟩
  | .hbm, ⟨46, _⟩ => ⟨S100000x64, .f32⟩
  | .hbm, ⟨47, _⟩ => ⟨S1200000x1, .i32⟩
  | .hbm, ⟨48, _⟩ => ⟨S100000x64, .f32⟩
  | .hbm, ⟨49, _⟩ => ⟨S100000x64, .f32⟩
  | .hbm, ⟨50, _⟩ => ⟨S1x16, .f32⟩
  | .hbm, ⟨51, _⟩ => ⟨S100000x64, .f32⟩
  | .hbm, ⟨52, _⟩ => ⟨S100000x16, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S64x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S64x16, .f32⟩
  | .local _ .vmem, ⟨24, _⟩ => ⟨S1x16, .f32⟩
  | .local _ .vmem, ⟨25, _⟩ => ⟨S2000x64, .f32⟩
  | .local _ .vmem, ⟨26, _⟩ => ⟨S2000x64, .f32⟩
  | .local _ .vmem, ⟨27, _⟩ => ⟨S2000x16, .f32⟩
  | .local _ .vmem, ⟨28, _⟩ => ⟨S2000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34_0 : Ref sig .tc := ⟨.hbm, 51, rfl⟩
abbrev main_v34_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S16_S1x16 : S16.ShapeCasts S1x16
  reduces_S2000x64_S2000 : S2000x64.Reduces [1] S2000
  shapeCasts_S2000_S2000x1 : S2000.ShapeCasts S2000x1
  broadcasts_S2000x1_S2000x64 : S2000x1.Broadcasts S2000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S2000x64_S64x64_S2000x64_1_0_0_1_n_n_wf : DotDims.WF S2000x64 S64x64 S2000x64 [1] [0] [0] [1] [] []
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x16.size a ≤ S64x16.size a
  hwx3_1 : ∀ i : grid3.Coords, EltTy.bits .f32 = 32 ∨ (Rect.block (s := S64x16) S64x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x16.size a ≤ S100000x16.size a
  hwx3_4 : ∀ i : grid3.Coords, EltTy.bits .f32 = 32 ∨ (Rect.block (s := S100000x16) S2000x16.size (cc3_transform_4 i) (hinb3_4 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v32) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34_0) S2000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v34_1) S2000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64x16 : Shape := ⟨2, ![64, 16]⟩
abbrev S16 : Shape := ⟨1, ![16]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x16, .f32⟩
  | .hbm, ⟨7, _⟩ => ⟨S16, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S_, .f32⟩
  | .hbm, ⟨18, _⟩ => ⟨S100000x64, .f32⟩
  | .hbm, ⟨19, _⟩ => ⟨S1200000x1, .i32⟩
  | .hbm, ⟨20, _⟩ => ⟨S100000x64, .f32⟩
  | .hbm, ⟨21, _⟩ => ⟨S100000x64, .f32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S_, .i32⟩
  | .hbm, ⟨27, _⟩ => ⟨S1200000, .i32⟩
  | .hbm, ⟨28, _⟩ => ⟨S1200000, .i1⟩
  | .hbm, ⟨29, _⟩ => ⟨S_, .i32⟩
  | .hbm, ⟨30, _⟩ => ⟨S1200000, .i32⟩
  | .hbm, ⟨31, _⟩ => ⟨S1200000, .i32⟩
  | .hbm, ⟨32, _⟩ => ⟨S1200000, .i32⟩
  | .hbm, ⟨33, _⟩ => ⟨S1200000x1, .i32⟩
  | .hbm, ⟨34, _⟩ => ⟨S1200000x64, .f32⟩
  | .hbm, ⟨35, _⟩ => ⟨S_, .f32⟩
  | .hbm, ⟨36, _⟩ => ⟨S100000x64, .f32⟩
  | .hbm, ⟨37, _⟩ => ⟨S1200000x1, .i32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1200000, .i32⟩
  | .hbm, ⟨46, _⟩ => ⟨S1200000, .i1⟩
  | .hbm, ⟨47, _⟩ => ⟨S_, .i32⟩
  | .hbm, ⟨48, _⟩ => ⟨S1200000, .i32⟩
  | .hbm, ⟨49, _⟩ => ⟨S1200000, .i32⟩
  | .hbm, ⟨50, _⟩ => ⟨S1200000, .i32⟩
  | .hbm, ⟨51, _⟩ => ⟨S1200000x1, .i32⟩
  | .hbm, ⟨52, _⟩ => ⟨S1200000x64, .f32⟩
  | .hbm, ⟨53, _⟩ => ⟨S_, .f32⟩
  | .hbm, ⟨54, _⟩ => ⟨S100000x64, .f32⟩
  | .hbm, ⟨55, _⟩ => ⟨S1200000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000, .f32⟩
  | .hbm, ⟨65, _⟩ => ⟨S100000x1, .f32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S100000x16, .f32⟩
  | .hbm, ⟨73, _⟩ => ⟨S1x16, .f32⟩
  | .hbm, ⟨74, _⟩ => ⟨S100000x16, .f32⟩
  | .hbm, ⟨75, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_cst : Ref sig .tc := ⟨.hbm, 41, rfl⟩
abbrev main_call1_v0 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call2_cst : Ref sig .tc := ⟨.hbm, 59, rfl⟩
abbrev main_call2_v0 : Ref sig .tc := ⟨.hbm, 60, rfl⟩
abbrev main_v38 : Ref sig .tc := ⟨.hbm, 61, rfl⟩
abbrev main_call3_v0 : Ref sig .tc := ⟨.hbm, 62, rfl⟩
abbrev main_call3_cst : Ref sig .tc := ⟨.hbm, 63, rfl⟩
abbrev main_call3_v1 : Ref sig .tc := ⟨.hbm, 64, rfl⟩
abbrev main_call3_v2 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The idealized kernel's run with its two results NAMED.  @main is four pallas_calls among four stretches of host
  operations; every execution ends with each unscoped buffer at the last boundary's contents (the fold `Gen.W8`
  of the stretches and the regions' write-backs over the launch memory).  Here the two result arrays are read at
  that fold, beside the eight argument arrays, which end as launched.
-/
import proofs.«129091_j24154896073106_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result arrays at the last
    boundary's contents and the argument arrays as launched. -/
theorem run_named : θ_run defs (onTc (τ := τ) (main (F := F))) ⟨m, fun _ => 0, ρ⟩ (fun r => ∀ c : Dev nD,
      r.2.mem ((c.tc : Thread nD τ).loc main_v34_1) = W8 m ρ c (Proc.devRef .tc main_v34_1)
      ∧ r.2.mem ((c.tc : Thread nD τ).loc main_v34_0) = W8 m ρ c (Proc.devRef .tc main_v34_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v34_1 (by decide)),
       h c _ (mem_uc main_v34_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.KRun

end
-- ==== Proof.Spec.lean ====
/-
  The mathematics both programs compute, over the extended reals, entry by entry.

  One graph-convolution layer: from node features h, the neighbour sums a and a weight matrix w,
      layer h a w (p, q) = max (Σ k, (h (p, k) + a (p, k)) * w (k, q)) 0.
  The row normalisation: with nrm h p = max (√(Σ k, h (p, k) * h (p, k))) ε (ε the shared single-precision literal),
      feat h (p, q) = h (p, q) / nrm h p,
  and the output projection
      proj f w b (p, q) = (Σ k, f (p, k) * w (k, q)) + b q.
  Neither side distributes a product over a sum or cancels anything, so no finiteness is used: the kernel's
  tiled matrix products and lane sums and the reference's whole-array ones are the same sums entry by entry.
-/
import Idealize.ShloMosaic.PureOps.Ideal
import Idealize.ShloMosaic.Lib.ValueIdx

noncomputable section

namespace Cert.GinSpec

open Idealize.ShloMosaic Idealize.ShloMosaic.ValueIdx

/-- Arrays of extended reals over literal index sets. -/
abbrev Arr (a b : Nat) := (⟨2, ![a, b]⟩ : Shape).Idx → EReal

/-- The clamp of the row norm: the single-precision literal both programs share. -/
def eps : EReal := Ideal.ofBits .f32 0x2B8CBCCC#32

/-- One layer at entry (p, q). -/
def layerAt (h a : Arr 100000 64) (w : Arr 64 64) (p : Fin 100000) (q : Fin 64) : EReal :=
  max (∑ k : Fin 64, (h (ix2 p k) + a (ix2 p k)) * w (ix2 k q)) 0

/-- One layer as a whole array. -/
def layer (h a : Arr 100000 64) (w : Arr 64 64) : Arr 100000 64 :=
  fun i => layerAt h a w (i 0) (i 1)

/-- The clamped norm of row p. -/
def nrm (h : Arr 100000 64) (p : Fin 100000) : EReal :=
  max (Ideal.sqrt (∑ k : Fin 64, h (ix2 p k) * h (ix2 p k))) eps

/-- The normalised features as a whole array. -/
def feat (h : Arr 100000 64) : Arr 100000 64 :=
  fun i => Ideal.div (h (ix2 (i 0) (i 1))) (nrm h (i 0))

/-- The projected output as a whole array. -/
def proj (f : Arr 100000 64) (w : Arr 64 16) (b : (⟨1, ![16]⟩ : Shape).Idx → EReal) : Arr 100000 16 :=
  fun i => (∑ k : Fin 64, f (ix2 (i 0) k) * w (ix2 k (i 1))) + b (ix1 (i 1))

theorem layer_ix (h a : Arr 100000 64) (w : Arr 64 64) (p : Fin 100000) (q : Fin 64) :
    layer h a w (ix2 p q) = layerAt h a w p q := rfl

theorem feat_ix (h : Arr 100000 64) (p : Fin 100000) (q : Fin 64) :
    feat h (ix2 p q) = Ideal.div (h (ix2 p q)) (nrm h p) := rfl

theorem proj_ix (f : Arr 100000 64) (w : Arr 64 16) (b : (⟨1, ![16]⟩ : Shape).Idx → EReal) (p : Fin 100000) (q : Fin 16) :
    proj f w b (ix2 p q) = (∑ k : Fin 64, f (ix2 p k) * w (ix2 k q)) + b (ix1 q) := rfl

end Cert.GinSpec

end
-- ==== Proof.Net.lean ====
/-
  The whole network as one function of the argument arrays, over the extended reals.

  `seg h s d` is the neighbour sum of h along the edges (s, d): the rows of h gathered at the (wrapped) source
  indices and added into the rows named by the destination indices.  It is the same chain of host operations in
  both programs, so it is carried here as one function and never opened.  Three layers
      h₁ = layer x (seg x) w₀,  h₂ = layer h₁ (seg h₁) w₁,  h₃ = layer h₂ (seg h₂) w₂
  are followed by the row normalisation `feat h₃` and the projection `proj (feat h₃) w b`.
-/
import proofs.«129091_j24154896073106_1_alg».proof.ReferenceIdeal
import proofs.«129091_j24154896073106_1_alg».proof.Proof.Spec

noncomputable section

namespace Cert.GinNet

open Cert.ReferenceIdeal Idealize.ShloMosaic Cert.GinSpec

variable [Cert.ReferenceIdeal.Facts]
open Cert.ReferenceIdeal.Facts₀ Cert.ReferenceIdeal.Facts

/-- Node features, edge endpoints, weights. -/
abbrev Feat := (⟨S100000x64, .f32⟩ : BufTy).Contents (Elt Ideal)
abbrev Edge := (⟨S1200000, .i32⟩ : BufTy).Contents (Elt Ideal)
abbrev Wt := (⟨S64x64, .f32⟩ : BufTy).Contents (Elt Ideal)

/-- The neighbour sum: gather the rows of `h` at the source indices (a negative index wrapped by the row count),
    scatter-add them into a zero array at the destination indices. -/
def seg (h : Feat) (s d : Edge) : Feat :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 d)
    (Host.gather gather_S100000x64_S1200000x1_S1200000x64_1_0_n_n_0_1_164 h
      (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 100000#32))) s)))

def h1 (x : Feat) (s d : Edge) (w0 : Wt) : Feat := layer x (seg x s d) w0
def h2 (x : Feat) (s d : Edge) (w0 w1 : Wt) : Feat := layer (h1 x s d w0) (seg (h1 x s d w0) s d) w1
def h3 (x : Feat) (s d : Edge) (w0 w1 w2 : Wt) : Feat := layer (h2 x s d w0 w1) (seg (h2 x s d w0 w1) s d) w2

/-- The normalised features, the second result. -/
def featOut (x : Feat) (s d : Edge) (w0 w1 w2 : Wt) : Feat := feat (h3 x s d w0 w1 w2)

/-- The projected output, the first result. -/
def projOut (x : Feat) (s d : Edge) (w0 w1 w2 : Wt) (wo : (⟨S64x16, .f32⟩ : BufTy).Contents (Elt Ideal))
    (b : (⟨S16, .f32⟩ : BufTy).Contents (Elt Ideal)) : (⟨S100000x16, .f32⟩ : BufTy).Contents (Elt Ideal) :=
  proj (featOut x s d w0 w1 w2) wo b

end Cert.GinNet

end
-- ==== Proof.HostSteps.lean ====
/-
  The host operations between the pallas_calls, read as functions of the buffers they find.

  Before each of the three layers the host forms the neighbour sum of the current node features (the shared
  gather and scatter-add chain, `seg`), reading the two edge arrays; before the last call it only re-lays the
  bias vector as one row.  No stretch writes an argument array or an earlier call's result, so those are found
  by the next call as the stretch found them.
-/
import proofs.«129091_j24154896073106_1_alg».proof.Proof.Gen.KernelIdeal.Launch
import proofs.«129091_j24154896073106_1_alg».proof.Proof.Gen.ReferenceIdeal
import proofs.«129091_j24154896073106_1_alg».proof.Proof.Net
import Idealize.ShloMosaic.Lib.StableHlo.Run

noncomputable section

namespace Cert.KernelIdeal.HostSteps

open Cert.KernelIdeal Cert.KernelIdeal.Gen Idealize.ShloMosaic Idealize.ShloMosaic.TcCoe Idealize.SL.Sem
open Idealize.ShloMosaic.StableHlo

variable (W : Valuation τ sig (Elt Ideal))

/-- The first stretch leaves the neighbour sum of the input features. -/
theorem seg0 : StableHlo.after (hostOps0 (F := Ideal)) W (Proc.devRef .tc main_v9)
    = Cert.GinNet.seg (W (Proc.devRef .tc main_arg0)) (W (Proc.devRef .tc main_arg1)) (W (Proc.devRef .tc main_arg2)) := by
  after_results; rfl

/-- The second stretch leaves the neighbour sum of the first layer's result. -/
theorem seg1 : StableHlo.after (hostOps1 (F := Ideal)) W (Proc.devRef .tc main_v20)
    = Cert.GinNet.seg (W (Proc.devRef .tc main_v10)) (W (Proc.devRef .tc main_arg1)) (W (Proc.devRef .tc main_arg2)) := by
  after_results; rfl

/-- The third stretch leaves the neighbour sum of the second layer's result. -/
theorem seg2 : StableHlo.after (hostOps2 (F := Ideal)) W (Proc.devRef .tc main_v31)
    = Cert.GinNet.seg (W (Proc.devRef .tc main_v21)) (W (Proc.devRef .tc main_arg1)) (W (Proc.devRef .tc main_arg2)) := by
  after_results; rfl

/-- The last stretch re-lays the bias vector as one row. -/
theorem bias3 : StableHlo.after (hostOps3 (F := Ideal)) W (Proc.devRef .tc main_v33)
    = shapeCast S1x16 (W (Proc.devRef .tc main_arg7)) shapeCasts_S16_S1x16 := by
  after_results; rfl

/-! What each stretch leaves as it found it. -/

theorem keep0_main_arg0 : StableHlo.after (hostOps0 (F := Ideal)) W (Proc.devRef .tc main_arg0) = W (Proc.devRef .tc main_arg0) := by after_results
theorem keep0_main_arg1 : StableHlo.after (hostOps0 (F := Ideal)) W (Proc.devRef .tc main_arg1) = W (Proc.devRef .tc main_arg1) := by after_results
theorem keep0_main_arg2 : StableHlo.after (hostOps0 (F := Ideal)) W (Proc.devRef .tc main_arg2) = W (Proc.devRef .tc main_arg2) := by after_results
theorem keep0_main_arg3 : StableHlo.after (hostOps0 (F := Ideal)) W (Proc.devRef .tc main_arg3) = W (Proc.devRef .tc main_arg3) := by after_results
theorem keep0_main_arg4 : StableHlo.after (hostOps0 (F := Ideal)) W (Proc.devRef .tc main_arg4) = W (Proc.devRef .tc main_arg4) := by after_results
theorem keep0_main_arg5 : StableHlo.after (hostOps0 (F := Ideal)) W (Proc.devRef .tc main_arg5) = W (Proc.devRef .tc main_arg5) := by after_results
theorem keep0_main_arg6 : StableHlo.after (hostOps0 (F := Ideal)) W (Proc.devRef .tc main_arg6) = W (Proc.devRef .tc main_arg6) := by after_results
theorem keep0_main_arg7 : StableHlo.after (hostOps0 (F := Ideal)) W (Proc.devRef .tc main_arg7) = W (Proc.devRef .tc main_arg7) := by after_results
theorem keep1_main_v10 : StableHlo.after (hostOps1 (F := Ideal)) W (Proc.devRef .tc main_v10) = W (Proc.devRef .tc main_v10) := by after_results
theorem keep1_main_arg1 : StableHlo.after (hostOps1 (F := Ideal)) W (Proc.devRef .tc main_arg1) = W (Proc.devRef .tc main_arg1) := by after_results
theorem keep1_main_arg2 : StableHlo.after (hostOps1 (F := Ideal)) W (Proc.devRef .tc main_arg2) = W (Proc.devRef .tc main_arg2) := by after_results
theorem keep1_main_arg4 : StableHlo.after (hostOps1 (F := Ideal)) W (Proc.devRef .tc main_arg4) = W (Proc.devRef .tc main_arg4) := by after_results
theorem keep1_main_arg5 : StableHlo.after (hostOps1 (F := Ideal)) W (Proc.devRef .tc main_arg5) = W (Proc.devRef .tc main_arg5) := by after_results
theorem keep1_main_arg6 : StableHlo.after (hostOps1 (F := Ideal)) W (Proc.devRef .tc main_arg6) = W (Proc.devRef .tc main_arg6) := by after_results
theorem keep1_main_arg7 : StableHlo.after (hostOps1 (F := Ideal)) W (Proc.devRef .tc main_arg7) = W (Proc.devRef .tc main_arg7) := by after_results
theorem keep2_main_v21 : StableHlo.after (hostOps2 (F := Ideal)) W (Proc.devRef .tc main_v21) = W (Proc.devRef .tc main_v21) := by after_results
theorem keep2_main_arg5 : StableHlo.after (hostOps2 (F := Ideal)) W (Proc.devRef .tc main_arg5) = W (Proc.devRef .tc main_arg5) := by after_results
theorem keep2_main_arg6 : StableHlo.after (hostOps2 (F := Ideal)) W (Proc.devRef .tc main_arg6) = W (Proc.devRef .tc main_arg6) := by after_results
theorem keep2_main_arg7 : StableHlo.after (hostOps2 (F := Ideal)) W (Proc.devRef .tc main_arg7) = W (Proc.devRef .tc main_arg7) := by after_results
theorem keep3_main_v32 : StableHlo.after (hostOps3 (F := Ideal)) W (Proc.devRef .tc main_v32) = W (Proc.devRef .tc main_v32) := by after_results
theorem keep3_main_arg6 : StableHlo.after (hostOps3 (F := Ideal)) W (Proc.devRef .tc main_arg6) = W (Proc.devRef .tc main_arg6) := by after_results

end Cert.KernelIdeal.HostSteps

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«129091_j24154896073106_1_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.GinPay.lean ====
/-
  One layer's stored block read at an entry, over the extended reals.

  The body adds the feature block and the neighbour-sum block, multiplies the sum by the weight matrix on the
  matrix unit into a zero accumulator, and clamps below at zero.  A change of float format is the identity on
  extended reals and the product into a zero accumulator is the plain sum over the contracted coordinate, so
  entry (r, q) of the stored block is  max (Σ k, (x₀ (r, k) + x₁ (r, k)) * x₂ (k, q)) 0.
-/
import proofs.«129091_j24154896073106_1_alg».proof.Proof.Gen.KernelIdeal.Skeleton
import proofs.«129091_j24154896073106_1_alg».proof.Proof.LibDotApply
import Idealize.ShloMosaic.Lib.Pipeline.Value
import Idealize.ShloMosaic.Lib.ValueIdx

noncomputable section

namespace Cert.KernelIdeal.GinPay

open Cert.KernelIdeal Cert.KernelIdeal.Gen Idealize.ShloMosaic Idealize.ShloMosaic.ValueIdx

/-- The layers' product contracts the left operand's columns with the right operand's rows. -/
theorem plain : Cert.LibPlainDot.IsPlain dot_S2000x64_S64x64_S2000x64_1_0_0_1_n_n := ⟨rfl, rfl, rfl, rfl, rfl, rfl⟩

/-- The clamp's zero. -/
theorem zero_bits : Ideal.ofBits .f32 0x00000000#32 = 0 := Ideal.ofBits_zero_f32

/-- The block a layer stores, at entry (r, q), for a sum block `s` and a weight block `w` (format changes dropped). -/
theorem core_at (s : FVec Ideal S2000x64 .f32) (w : FVec Ideal S64x64 .f32) (r : Fin 2000) (q : Fin 64) :
    maximumf (matmul dot_S2000x64_S64x64_S2000x64_1_0_0_1_n_n none (truncf .bf16 s bitsLt_bf16_f32) (truncf .bf16 w bitsLt_bf16_f32)
        (constant S2000x64 .f32 0x00000000#32)) (broadcast S2000x64 (Scalar.ofBits .f32 0x00000000#32)) (ix2 r q)
      = max (∑ k : Fin 64, s (ix2 r k) * w (ix2 k q)) 0 := by
  rw [maximumf_apply]
  refine congrArg₂ max ?_ zero_bits
  exact Cert.LibDotApply.matmul_zero_apply dot_S2000x64_S64x64_S2000x64_1_0_0_1_n_n plain none _ _ r q

/-- The first layer's stored block at entry (r, q). -/
theorem pay0_at (x0 x1 : Vec Ideal S2000x64 .f32) (x2 : Vec Ideal S64x64 .f32) (r : Fin 2000) (q : Fin 64) :
    k0_pay1 (F := Ideal) x0 x1 x2 (ix2 r q) = max (∑ k : Fin 64, (x0 (ix2 r k) + x1 (ix2 r k)) * x2 (ix2 k q)) 0 := by
  unfold k0_pay1
  rw [shapeCast_self]
  exact core_at (addf x0 x1) x2 r q

/-- The second layer's stored block at entry (r, q). -/
theorem pay1_at (x0 x1 : Vec Ideal S2000x64 .f32) (x2 : Vec Ideal S64x64 .f32) (r : Fin 2000) (q : Fin 64) :
    k1_pay1 (F := Ideal) x0 x1 x2 (ix2 r q) = max (∑ k : Fin 64, (x0 (ix2 r k) + x1 (ix2 r k)) * x2 (ix2 k q)) 0 := by
  unfold k1_pay1
  rw [shapeCast_self, shapeCast_self]
  exact core_at (addf x0 x1) x2 r q

/-- The third layer's stored block at entry (r, q). -/
theorem pay2_at (x0 x1 : Vec Ideal S2000x64 .f32) (x2 : Vec Ideal S64x64 .f32) (r : Fin 2000) (q : Fin 64) :
    k2_pay1 (F := Ideal) x0 x1 x2 (ix2 r q) = max (∑ k : Fin 64, (x0 (ix2 r k) + x1 (ix2 r k)) * x2 (ix2 k q)) 0 := by
  unfold k2_pay1
  rw [shapeCast_self, shapeCast_self]
  exact core_at (addf x0 x1) x2 r q

end Cert.KernelIdeal.GinPay

end
-- ==== Proof.Region0.lean ====
/-
  Layer 1 on the grid: the array the pallas_call leaves is the layer's function of the arrays it finds.

  The grid has 50 points; point t stages rows 2000·t … 2000·t + 1999 of the feature array and of the neighbour-sum
  array, the whole 64 × 64 weight matrix, and writes back the same rows of the result.  Entry (r, q) of the block
  written at t is the layer's value at row 2000·t + r, and the 50 blocks tile the result array, so the array
  after the call is  layer h a w  of the three arrays as the call finds them.
-/
import proofs.«129091_j24154896073106_1_alg».proof.Proof.Gen.KernelIdeal.Frame
import proofs.«129091_j24154896073106_1_alg».proof.Proof.GinPay
import proofs.«129091_j24154896073106_1_alg».proof.Proof.Spec
import Idealize.ShloMosaic.Lib.Pipeline.Value

set_option maxRecDepth 16384

noncomputable section

namespace Cert.KernelIdeal.R0

open Cert.KernelIdeal Cert.KernelIdeal.Gen Idealize.ShloMosaic Idealize.ShloMosaic.TcCoe Idealize.SL.Sem
open Idealize.ShloMosaic.ValueIdx Cert.GinSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three row-tiled windows sit at block row t, the weight window at the origin. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array row that row r of point t's block is. -/
def row (t : Fin cfg0.N) (r : Fin 2000) : Fin 100000 :=
  ⟨t.val * 2000 + r.val, by have := t.isLt; have hN : cfg0.N = 50 := N_0; have := r.isLt; omega⟩

/-- Point t writes back block t of the layer's function of the arrays the call finds. -/
theorem flushed_eq (c : Dev nD) (t : Fin cfg0.N) :
    (dat0 V c).flushed 3 t = ((cfg0.win 3).blk t).view.read (Elt Ideal)
      (layer (V c main_arg0) (V c main_v9) (V c main_arg3)) := by
  show (cfg0.win 3).cut (grid0.coords t) ((dat0 V c).after 3 t) = _
  rw [after0_3]
  unfold out0_3
  rw [View.canon_unit_zero hz]
  simp only [View.ld_unit_zero (S := S2000x64) hz, View.ld_unit_zero (S := S64x64) hz]
  obtain ⟨e00, e01, e10, e11, e20, e21, e30, e31⟩ := idx t
  funext j
  obtain ⟨r, q, rfl⟩ : ∃ (r : Fin 2000) (q : Fin 64), j = ix2 r q := ⟨j 0, j 1, eq_ix2 j⟩
  have hj : ((cfg0.win 3).blk t).view.emb (ix2 r q) = ix2 (row t r) q := by
    funext a; apply Fin.ext
    match a with
    | ⟨0, _⟩ => show win0_3.index t (0 : Fin 2) * 2000 + 1 * r.val = t.val * 2000 + r.val; omega
    | ⟨1, _⟩ => show win0_3.index t (1 : Fin 2) * 64 + 1 * q.val = q.val; omega
  show k0_pay1 (iblk0 V c 0 t) (iblk0 V c 1 t) (iblk0 V c 2 t) (ix2 r q)
    = layer (V c main_arg0) (V c main_v9) (V c main_arg3) (((cfg0.win 3).blk t).view.emb (ix2 r q))
  rw [hj, layer_ix]
  refine (GinPay.pay0_at _ _ _ r q).trans ?_
  unfold layerAt
  refine congrArg (fun s => max s 0) (Finset.sum_congr rfl fun k _ => ?_)
  have h0 : iblk0 V c 0 t (ix2 r k) = V c main_arg0 (ix2 (row t r) k) := by
    show V c main_arg0 (((cfg0.win 0).blk t).view.emb (ix2 r k)) = _
    refine congrArg _ (funext fun a => Fin.ext ?_)
    match a with
    | ⟨0, _⟩ => show win0_0.index t (0 : Fin 2) * 2000 + 1 * r.val = t.val * 2000 + r.val; omega
    | ⟨1, _⟩ => show win0_0.index t (1 : Fin 2) * 64 + 1 * k.val = k.val; omega
  have h1 : iblk0 V c 1 t (ix2 r k) = V c main_v9 (ix2 (row t r) k) := by
    show V c main_v9 (((cfg0.win 1).blk t).view.emb (ix2 r k)) = _
    refine congrArg _ (funext fun a => Fin.ext ?_)
    match a with
    | ⟨0, _⟩ => show win0_1.index t (0 : Fin 2) * 2000 + 1 * r.val = t.val * 2000 + r.val; omega
    | ⟨1, _⟩ => show win0_1.index t (1 : Fin 2) * 64 + 1 * k.val = k.val; omega
  have h2 : iblk0 V c 2 t (ix2 k q) = V c main_arg3 (ix2 k q) := by
    show V c main_arg3 (((cfg0.win 2).blk t).view.emb (ix2 k q)) = _
    refine congrArg _ (funext fun a => Fin.ext ?_)
    match a with
    | ⟨0, _⟩ => show win0_2.index t (0 : Fin 2) * 64 + 1 * k.val = k.val; omega
    | ⟨1, _⟩ => show win0_2.index t (1 : Fin 2) * 64 + 1 * q.val = q.val; omega
  rw [h0, h1, h2]

/-- An index of the result array is in point t's block iff each coordinate is in the block's range on its axis. -/
theorem mem_blk (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v10).slice (win0_3.rect t)).set ↔ _
  rw [View.set_slice_whole, Rect.mem_set_unit]
  exact Iff.rfl

/-- The 50 blocks tile the result array: row i₀ lies in the block of point i₀ / 2000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  obtain ⟨t, ht⟩ : ∃ t : Fin cfg0.N, t.val = (i 0).val / 2000 := ⟨⟨(i 0).val / 2000, by omega⟩, rfl⟩
  obtain ⟨-, -, -, -, -, -, e30, e31⟩ := idx t
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 64 ≤ (i 1).val ∧ (i 1).val < win0_3.index t (1 : Fin 2) * 64 + 64
    omega

/-- The result array after the call. -/
theorem final (c : Dev nD) :
    (dat0 V c).arrAt 3 cfg0.N = layer (V c main_arg0) (V c main_v9) (V c main_arg3) :=
  (dat0 V c).arrAt_eq_of_cover 3 _ (fun t _ => flushed_eq V c t) cover

end Cert.KernelIdeal.R0

end
-- ==== Proof.Region1.lean ====
/-
  Layer 2 on the grid: the array the pallas_call leaves is the layer's function of the arrays it finds.

  The grid has 50 points; point t stages rows 2000·t … 2000·t + 1999 of the feature array and of the neighbour-sum
  array, the whole 64 × 64 weight matrix, and writes back the same rows of the result.  Entry (r, q) of the block
  written at t is the layer's value at row 2000·t + r, and the 50 blocks tile the result array, so the array
  after the call is  layer h a w  of the three arrays as the call finds them.
-/
import proofs.«129091_j24154896073106_1_alg».proof.Proof.Gen.KernelIdeal.Frame
import proofs.«129091_j24154896073106_1_alg».proof.Proof.GinPay
import proofs.«129091_j24154896073106_1_alg».proof.Proof.Spec
import Idealize.ShloMosaic.Lib.Pipeline.Value

set_option maxRecDepth 16384

noncomputable section

namespace Cert.KernelIdeal.R1

open Cert.KernelIdeal Cert.KernelIdeal.Gen Idealize.ShloMosaic Idealize.ShloMosaic.TcCoe Idealize.SL.Sem
open Idealize.ShloMosaic.ValueIdx Cert.GinSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three row-tiled windows sit at block row t, the weight window at the origin. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The array row that row r of point t's block is. -/
def row (t : Fin cfg1.N) (r : Fin 2000) : Fin 100000 :=
  ⟨t.val * 2000 + r.val, by have := t.isLt; have hN : cfg1.N = 50 := N_1; have := r.isLt; omega⟩

/-- Point t writes back block t of the layer's function of the arrays the call finds. -/
theorem flushed_eq (c : Dev nD) (t : Fin cfg1.N) :
    (dat1 V c).flushed 3 t = ((cfg1.win 3).blk t).view.read (Elt Ideal)
      (layer (V c main_v10) (V c main_v20) (V c main_arg4)) := by
  show (cfg1.win 3).cut (grid1.coords t) ((dat1 V c).after 3 t) = _
  rw [after1_3]
  unfold out1_3
  rw [View.canon_unit_zero hz]
  simp only [View.ld_unit_zero (S := S2000x64) hz, View.ld_unit_zero (S := S64x64) hz]
  obtain ⟨e00, e01, e10, e11, e20, e21, e30, e31⟩ := idx t
  funext j
  obtain ⟨r, q, rfl⟩ : ∃ (r : Fin 2000) (q : Fin 64), j = ix2 r q := ⟨j 0, j 1, eq_ix2 j⟩
  have hj : ((cfg1.win 3).blk t).view.emb (ix2 r q) = ix2 (row t r) q := by
    funext a; apply Fin.ext
    match a with
    | ⟨0, _⟩ => show win1_3.index t (0 : Fin 2) * 2000 + 1 * r.val = t.val * 2000 + r.val; omega
    | ⟨1, _⟩ => show win1_3.index t (1 : Fin 2) * 64 + 1 * q.val = q.val; omega
  show k1_pay1 (iblk1 V c 0 t) (iblk1 V c 1 t) (iblk1 V c 2 t) (ix2 r q)
    = layer (V c main_v10) (V c main_v20) (V c main_arg4) (((cfg1.win 3).blk t).view.emb (ix2 r q))
  rw [hj, layer_ix]
  refine (GinPay.pay1_at _ _ _ r q).trans ?_
  unfold layerAt
  refine congrArg (fun s => max s 0) (Finset.sum_congr rfl fun k _ => ?_)
  have h0 : iblk1 V c 0 t (ix2 r k) = V c main_v10 (ix2 (row t r) k) := by
    show V c main_v10 (((cfg1.win 0).blk t).view.emb (ix2 r k)) = _
    refine congrArg _ (funext fun a => Fin.ext ?_)
    match a with
    | ⟨0, _⟩ => show win1_0.index t (0 : Fin 2) * 2000 + 1 * r.val = t.val * 2000 + r.val; omega
    | ⟨1, _⟩ => show win1_0.index t (1 : Fin 2) * 64 + 1 * k.val = k.val; omega
  have h1 : iblk1 V c 1 t (ix2 r k) = V c main_v20 (ix2 (row t r) k) := by
    show V c main_v20 (((cfg1.win 1).blk t).view.emb (ix2 r k)) = _
    refine congrArg _ (funext fun a => Fin.ext ?_)
    match a with
    | ⟨0, _⟩ => show win1_1.index t (0 : Fin 2) * 2000 + 1 * r.val = t.val * 2000 + r.val; omega
    | ⟨1, _⟩ => show win1_1.index t (1 : Fin 2) * 64 + 1 * k.val = k.val; omega
  have h2 : iblk1 V c 2 t (ix2 k q) = V c main_arg4 (ix2 k q) := by
    show V c main_arg4 (((cfg1.win 2).blk t).view.emb (ix2 k q)) = _
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega
  rw [h0, h1, h2]

/-- An index of the result array is in point t's block iff each coordinate is in the block's range on its axis. -/
theorem mem_blk (t : Fin cfg1.N) (i : S100000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v21).slice (win1_3.rect t)).set ↔ _
  rw [View.set_slice_whole, Rect.mem_set_unit]
  exact Iff.rfl

/-- The 50 blocks tile the result array: row i₀ lies in the block of point i₀ / 2000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by omega⟩, rfl⟩
  obtain ⟨-, -, -, -, -, -, e30, e31⟩ := idx t
  refine ⟨t, flush1_3 t, ?_⟩
  rw [mem_blk]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 64 ≤ (i 1).val ∧ (i 1).val < win1_3.index t (1 : Fin 2) * 64 + 64
    omega

/-- The result array after the call. -/
theorem final (c : Dev nD) :
    (dat1 V c).arrAt 3 cfg1.N = layer (V c main_v10) (V c main_v20) (V c main_arg4) :=
  (dat1 V c).arrAt_eq_of_cover 3 _ (fun t _ => flushed_eq V c t) cover

end Cert.KernelIdeal.R1

end
-- ==== Proof.Region2.lean ====
/-
  Layer 3 on the grid: the array the pallas_call leaves is the layer's function of the arrays it finds.

  The grid has 50 points; point t stages rows 2000·t … 2000·t + 1999 of the feature array and of the neighbour-sum
  array, the whole 64 × 64 weight matrix, and writes back the same rows of the result.  Entry (r, q) of the block
  written at t is the layer's value at row 2000·t + r, and the 50 blocks tile the result array, so the array
  after the call is  layer h a w  of the three arrays as the call finds them.
-/
import proofs.«129091_j24154896073106_1_alg».proof.Proof.Gen.KernelIdeal.Frame
import proofs.«129091_j24154896073106_1_alg».proof.Proof.GinPay
import proofs.«129091_j24154896073106_1_alg».proof.Proof.Spec
import Idealize.ShloMosaic.Lib.Pipeline.Value

set_option maxRecDepth 16384

noncomputable section

namespace Cert.KernelIdeal.R2

open Cert.KernelIdeal Cert.KernelIdeal.Gen Idealize.ShloMosaic Idealize.ShloMosaic.TcCoe Idealize.SL.Sem
open Idealize.ShloMosaic.ValueIdx Cert.GinSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three row-tiled windows sit at block row t, the weight window at the origin. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The array row that row r of point t's block is. -/
def row (t : Fin cfg2.N) (r : Fin 2000) : Fin 100000 :=
  ⟨t.val * 2000 + r.val, by have := t.isLt; have hN : cfg2.N = 50 := N_2; have := r.isLt; omega⟩

/-- Point t writes back block t of the layer's function of the arrays the call finds. -/
theorem flushed_eq (c : Dev nD) (t : Fin cfg2.N) :
    (dat2 V c).flushed 3 t = ((cfg2.win 3).blk t).view.read (Elt Ideal)
      (layer (V c main_v21) (V c main_v31) (V c main_arg5)) := by
  show (cfg2.win 3).cut (grid2.coords t) ((dat2 V c).after 3 t) = _
  rw [after2_3]
  unfold out2_3
  rw [View.canon_unit_zero hz]
  simp only [View.ld_unit_zero (S := S2000x64) hz, View.ld_unit_zero (S := S64x64) hz]
  obtain ⟨e00, e01, e10, e11, e20, e21, e30, e31⟩ := idx t
  funext j
  obtain ⟨r, q, rfl⟩ : ∃ (r : Fin 2000) (q : Fin 64), j = ix2 r q := ⟨j 0, j 1, eq_ix2 j⟩
  have hj : ((cfg2.win 3).blk t).view.emb (ix2 r q) = ix2 (row t r) q := by
    funext a; apply Fin.ext
    match a with
    | ⟨0, _⟩ => show win2_3.index t (0 : Fin 2) * 2000 + 1 * r.val = t.val * 2000 + r.val; omega
    | ⟨1, _⟩ => show win2_3.index t (1 : Fin 2) * 64 + 1 * q.val = q.val; omega
  show k2_pay1 (iblk2 V c 0 t) (iblk2 V c 1 t) (iblk2 V c 2 t) (ix2 r q)
    = layer (V c main_v21) (V c main_v31) (V c main_arg5) (((cfg2.win 3).blk t).view.emb (ix2 r q))
  rw [hj, layer_ix]
  refine (GinPay.pay2_at _ _ _ r q).trans ?_
  unfold layerAt
  refine congrArg (fun s => max s 0) (Finset.sum_congr rfl fun k _ => ?_)
  have h0 : iblk2 V c 0 t (ix2 r k) = V c main_v21 (ix2 (row t r) k) := by
    show V c main_v21 (((cfg2.win 0).blk t).view.emb (ix2 r k)) = _
    refine congrArg _ (funext fun a => Fin.ext ?_)
    match a with
    | ⟨0, _⟩ => show win2_0.index t (0 : Fin 2) * 2000 + 1 * r.val = t.val * 2000 + r.val; omega
    | ⟨1, _⟩ => show win2_0.index t (1 : Fin 2) * 64 + 1 * k.val = k.val; omega
  have h1 : iblk2 V c 1 t (ix2 r k) = V c main_v31 (ix2 (row t r) k) := by
    show V c main_v31 (((cfg2.win 1).blk t).view.emb (ix2 r k)) = _
    refine congrArg _ (funext fun a => Fin.ext ?_)
    match a with
    | ⟨0, _⟩ => show win2_1.index t (0 : Fin 2) * 2000 + 1 * r.val = t.val * 2000 + r.val; omega
    | ⟨1, _⟩ => show win2_1.index t (1 : Fin 2) * 64 + 1 * k.val = k.val; omega
  have h2 : iblk2 V c 2 t (ix2 k q) = V c main_arg5 (ix2 k q) := by
    show V c main_arg5 (((cfg2.win 2).blk t).view.emb (ix2 k q)) = _
    refine congrArg _ (funext fun a => Fin.ext ?_)
    match a with
    | ⟨0, _⟩ => show win2_2.index t (0 : Fin 2) * 64 + 1 * k.val = k.val; omega
    | ⟨1, _⟩ => show win2_2.index t (1 : Fin 2) * 64 + 1 * q.val = q.val; omega
  rw [h0, h1, h2]

/-- An index of the result array is in point t's block iff each coordinate is in the block's range on its axis. -/
theorem mem_blk (t : Fin cfg2.N) (i : S100000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v32).slice (win2_3.rect t)).set ↔ _
  rw [View.set_slice_whole, Rect.mem_set_unit]
  exact Iff.rfl

/-- The 50 blocks tile the result array: row i₀ lies in the block of point i₀ / 2000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  obtain ⟨t, ht⟩ : ∃ t : Fin cfg2.N, t.val = (i 0).val / 2000 := ⟨⟨(i 0).val / 2000, by omega⟩, rfl⟩
  obtain ⟨-, -, -, -, -, -, e30, e31⟩ := idx t
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 64 ≤ (i 1).val ∧ (i 1).val < win2_3.index t (1 : Fin 2) * 64 + 64
    omega

/-- The result array after the call. -/
theorem final (c : Dev nD) :
    (dat2 V c).arrAt 3 cfg2.N = layer (V c main_v21) (V c main_v31) (V c main_arg5) :=
  (dat2 V c).arrAt_eq_of_cover 3 _ (fun t _ => flushed_eq V c t) cover

end Cert.KernelIdeal.R2

end
-- ==== Proof.FinalPay.lean ====
/-
  The last kernel's two stored values, read at an entry, over the extended reals.

  The first is the row normalisation: the entry (r, q) of the block divided by the clamped norm of row r, the norm being
  the square root of the sum over the 64 lanes of the squares, clamped below by the shared single-precision literal.
  The second is the projection: row r of the first against column q of the weights, summed over the 64 lanes, plus the
  bias at q. Every layout step (a cast to the same shape, a row sum kept as a column, a column spread over the lanes,
  one row spread over the rows) reads one entry of its operand, and the changes of format are the identity here.
-/
import proofs.«129091_j24154896073106_1_alg».proof.Proof.Gen.KernelIdeal.Skeleton
import proofs.«129091_j24154896073106_1_alg».proof.Proof.Spec
import proofs.«129091_j24154896073106_1_alg».proof.Proof.LibDotApply
import Idealize.ShloMosaic.Lib.Pipeline.Value
import Idealize.ShloMosaic.Lib.ValueLayout
import Idealize.ShloMosaic.PureOps.Ideal.Laws

noncomputable section

namespace Cert.KernelIdeal.FinalPay

open Cert.KernelIdeal Cert.KernelIdeal.Gen Idealize.ShloMosaic Idealize.ShloMosaic.ValueIdx

section Layout
variable {α : Type}

/-- An [a] array cast to [a, 1] reads, at (i, u), the operand at i, whatever the unit coordinate u:
the two row-major positions are i and i * 1 + 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the lanes of a [2000, 64] array, read at row r: the sum over k of the entries (r, k). -/
theorem laneSum_apply (src : FVec Ideal S2000x64 .f32) (h : S2000x64.Reduces [1] S2000) (hφ : FKind.Formats .f32)
    (hacc : (0x00000000#32 : BitVec 32) = 0x00000000#32) (r : Fin 2000) :
    multiReduction .add [1] S2000 src 0x00000000#32 h hφ hacc (ix1 r) = ∑ k : Fin 64, src (ix2 r k) := by
  refine (Ideal.multiReduction_add_single src 0x00000000#32 h hφ hacc (ix1 r)).trans ?_
  refine Finset.sum_congr rfl fun k _ => congrArg src ?_
  funext ax
  match ax with
  | ⟨0, _⟩ => exact Fin.ext rfl
  | ⟨1, _⟩ => exact Fin.ext rfl

/-- The shared single-precision clamp, as the extended real it denotes. -/
theorem clamp_eq : (Scalar.ofBits .f32 0x2B8CBCCC#32 : Ideal .f32) = Cert.GinSpec.eps := by
  unfold Cert.GinSpec.eps
  rfl

/-- The clamped norm of row r, as the kernel forms it: the lane sum of the squares, kept as a column, its
square root, and the maximum with the clamp. -/
theorem nrm_at (v : FVec Ideal S2000x64 .f32) (r : Fin 2000) (u : Fin 1) :
    maximumf (sqrt (shapeCast S2000x1 (multiReduction .add [1] S2000 (mulf v v) 0x00000000#32 reduces_S2000x64_S2000 (.inl rfl) rfl)
        shapeCasts_S2000_S2000x1)) (broadcast S2000x1 (Scalar.ofBits .f32 0x2B8CBCCC#32 : Ideal .f32)) (ix2 r u)
      = max (Ideal.sqrt (∑ k : Fin 64, v (ix2 r k) * v (ix2 r k))) Cert.GinSpec.eps := by
  unfold maximumf sqrt broadcast
  rw [Ideal.maximumf_def, Ideal.sqrt_def, clamp_eq]
  refine congrArg (fun s => max (Ideal.sqrt s) Cert.GinSpec.eps) ?_
  refine (shapeCast_a_a1_apply _ shapeCasts_S2000_S2000x1 r u).trans ?_
  refine (laneSum_apply (mulf v v) reduces_S2000x64_S2000 (.inl rfl) rfl r).trans ?_
  rfl

/-- The first stored value at entry (r, q): the entry divided by the clamped norm of its row. -/
theorem pay1_at (x0 : Vec Ideal S2000x64 .f32) (r : Fin 2000) (q : Fin 64) :
    k3_pay1 (F := Ideal) x0 (ix2 r q)
      = Ideal.div (x0 (ix2 r q)) (max (Ideal.sqrt (∑ k : Fin 64, x0 (ix2 r k) * x0 (ix2 r k))) Cert.GinSpec.eps) := by
  unfold k3_pay1
  simp only [shapeCast_self]
  unfold divf
  rw [Ideal.divf_def]
  refine congrArg (Ideal.div (x0 (ix2 r q))) ?_
  refine (broadcastTo_a1_ab_apply _ broadcasts_S2000x1_S2000x64 r q).trans ?_
  exact nrm_at x0 r 0

/-- The second stored value at entry (r, q): row r of the first stored value against column q of the weights,
plus the bias at q. -/
theorem pay2_at (x0 : Vec Ideal S2000x64 .f32) (x1 : Vec Ideal S64x16 .f32) (x2 : Vec Ideal S1x16 .f32) (r : Fin 2000) (q : Fin 16) :
    k3_pay2 (F := Ideal) x0 x1 x2 (ix2 r q)
      = (∑ k : Fin 64, k3_pay1 (F := Ideal) x0 (ix2 r k) * x1 (ix2 k q)) + x2 (ix2 (0 : Fin 1) q) := by
  unfold k3_pay2
  simp only [shapeCast_self]
  unfold addf
  rw [Ideal.addf_def]
  refine congr (congrArg HAdd.hAdd ?_) ?_
  · exact Cert.LibDotApply.matmul_zero_apply dot_S2000x64_S64x16_S2000x16_1_0_0_1_n_n ⟨rfl, rfl, rfl, rfl, rfl, rfl⟩ none
      (truncf .bf16 (k3_pay1 (F := Ideal) x0) bitsLt_bf16_f32) (truncf .bf16 x1 bitsLt_bf16_f32) r q
  · exact broadcastTo_1b_ab_apply x2 broadcasts_S1x16_S2000x16 r q

end Cert.KernelIdeal.FinalPay

end
-- ==== Proof.Region3.lean ====
/-
  The normalisation and the projection on the grid: the two arrays the last pallas_call leaves are the
  specification's functions of the arrays it finds.

  The grid has 50 points; point t stages rows 2000·t … 2000·t + 1999 of the feature array, the whole 64 × 16
  weight matrix and the whole 1 × 16 bias row, and writes back the same rows of the two results.  Entry (r, q) of
  the first block written at t is the feature at row 2000·t + r divided by the clamped norm of that row; entry
  (r, q) of the second is that normalised row against column q of the weights, plus the bias at q.  The 50 blocks
  tile each result array, so after the call the first array is  feat h  and the second is  proj (feat h) w b.
-/
import proofs.«129091_j24154896073106_1_alg».proof.Proof.Gen.KernelIdeal.Frame
import proofs.«129091_j24154896073106_1_alg».proof.Proof.FinalPay
import proofs.«129091_j24154896073106_1_alg».proof.Proof.Spec
import Idealize.ShloMosaic.Lib.Pipeline.Value

set_option maxRecDepth 16384

noncomputable section

namespace Cert.KernelIdeal.R3

open Cert.KernelIdeal Cert.KernelIdeal.Gen Idealize.ShloMosaic Idealize.ShloMosaic.TcCoe Idealize.SL.Sem
open Idealize.ShloMosaic.ValueIdx Cert.GinSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three row-tiled windows sit at block row t, the weight and bias windows at
the origin. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The array row that row r of point t's block is. -/
def row (t : Fin cfg3.N) (r : Fin 2000) : Fin 100000 :=
  ⟨t.val * 2000 + r.val, by have := t.isLt; have hN : cfg3.N = 50 := N_3; have := r.isLt; omega⟩

/-- Entry (r, k) of the feature block staged at point t is the feature array at row 2000·t + r. -/
theorem blk0_at (c : Dev nD) (t : Fin cfg3.N) (r : Fin 2000) (k : Fin 64) :
    iblk3 V c 0 t (ix2 r k) = V c main_v32 (ix2 (row t r) k) := by
  obtain ⟨e00, e01, -⟩ := idx t
  show V c main_v32 (((cfg3.win 0).blk t).view.emb (ix2 r k)) = _
  refine congrArg _ (funext fun a => Fin.ext ?_)
  match a with
  | ⟨0, _⟩ => show win3_0.index t (0 : Fin 2) * 2000 + 1 * r.val = t.val * 2000 + r.val; omega
  | ⟨1, _⟩ => show win3_0.index t (1 : Fin 2) * 64 + 1 * k.val = k.val; omega

/-- The weight block staged at any point is the whole weight matrix. -/
theorem blk1_at (c : Dev nD) (t : Fin cfg3.N) (k : Fin 64) (q : Fin 16) :
    iblk3 V c 1 t (ix2 k q) = V c main_arg6 (ix2 k q) := by
  obtain ⟨-, -, e10, e11, -⟩ := idx t
  show V c main_arg6 (((cfg3.win 1).blk t).view.emb (ix2 k q)) = _
  refine congrArg _ (funext fun a => Fin.ext ?_)
  match a with
  | ⟨0, _⟩ => show win3_1.index t (0 : Fin 2) * 64 + 1 * k.val = k.val; omega
  | ⟨1, _⟩ => show win3_1.index t (1 : Fin 2) * 16 + 1 * q.val = q.val; omega

/-- The bias block staged at any point is the whole bias row. -/
theorem blk2_at (c : Dev nD) (t : Fin cfg3.N) (u : Fin 1) (q : Fin 16) :
    iblk3 V c 2 t (ix2 u q) = V c main_v33 (ix2 u q) := by
  obtain ⟨-, -, -, -, e20, e21, -⟩ := idx t
  show V c main_v33 (((cfg3.win 2).blk t).view.emb (ix2 u q)) = _
  refine congrArg _ (funext fun a => Fin.ext ?_)
  match a with
  | ⟨0, _⟩ => show win3_2.index t (0 : Fin 2) * 1 + 1 * u.val = u.val; omega
  | ⟨1, _⟩ => show win3_2.index t (1 : Fin 2) * 16 + 1 * q.val = q.val; omega

/-- The first payload on point t's feature block, at (r, q): the normalised feature at row 2000·t + r. -/
theorem pay1_blk (c : Dev nD) (t : Fin cfg3.N) (r : Fin 2000) (q : Fin 64) :
    k3_pay1 (iblk3 V c 0 t) (ix2 r q) = feat (V c main_v32) (ix2 (row t r) q) := by
  rw [feat_ix]
  refine (FinalPay.pay1_at _ r q).trans ?_
  unfold nrm
  refine congr (congrArg Ideal.div (blk0_at V c t r q))
    (congrArg (fun s => max (Ideal.sqrt s) eps) (Finset.sum_congr rfl fun k _ => ?_))
  exact congr (congrArg HMul.hMul (blk0_at V c t r k)) (blk0_at V c t r k)

/-- Point t writes back block t of the normalised features of the array the call finds. -/
theorem flushed3_eq (c : Dev nD) (t : Fin cfg3.N) :
    (dat3 V c).flushed 3 t = ((cfg3.win 3).blk t).view.read (Elt Ideal) (feat (V c main_v32)) := by
  show (cfg3.win 3).cut (grid3.coords t) ((dat3 V c).after 3 t) = _
  rw [after3_3]
  unfold out3_3
  rw [View.canon_unit_zero hz]
  simp only [View.ld_unit_zero (S := S2000x64) hz]
  obtain ⟨-, -, -, -, -, -, e30, e31, -⟩ := idx t
  funext j
  obtain ⟨r, q, rfl⟩ : ∃ (r : Fin 2000) (q : Fin 64), j = ix2 r q := ⟨j 0, j 1, eq_ix2 j⟩
  have hj : ((cfg3.win 3).blk t).view.emb (ix2 r q) = ix2 (row t r) q := by
    funext a; apply Fin.ext
    match a with
    | ⟨0, _⟩ => show win3_3.index t (0 : Fin 2) * 2000 + 1 * r.val = t.val * 2000 + r.val; omega
    | ⟨1, _⟩ => show win3_3.index t (1 : Fin 2) * 64 + 1 * q.val = q.val; omega
  show k3_pay1 (iblk3 V c 0 t) (ix2 r q)
    = feat (V c main_v32) (((cfg3.win 3).blk t).view.emb (ix2 r q))
  rw [hj]
  exact pay1_blk V c t r q

/-- Point t writes back block t of the projection of the normalised features. -/
theorem flushed4_eq (c : Dev nD) (b : (⟨1, ![16]⟩ : Shape).Idx → EReal)
    (hb : ∀ q : Fin 16, V c main_v33 (ix2 (0 : Fin 1) q) = b (ix1 q)) (t : Fin cfg3.N) :
    (dat3 V c).flushed 4 t = ((cfg3.win 4).blk t).view.read (Elt Ideal)
      (proj (feat (V c main_v32)) (V c main_arg6) b) := by
  show (cfg3.win 4).cut (grid3.coords t) ((dat3 V c).after 4 t) = _
  rw [after3_4]
  unfold out3_4
  rw [View.canon_unit_zero hz]
  simp only [View.ld_unit_zero (S := S2000x64) hz, View.ld_unit_zero (S := S64x16) hz, View.ld_unit_zero (S := S1x16) hz]
  obtain ⟨-, -, -, -, -, -, -, -, e40, e41⟩ := idx t
  funext j
  obtain ⟨r, q, rfl⟩ : ∃ (r : Fin 2000) (q : Fin 16), j = ix2 r q := ⟨j 0, j 1, eq_ix2 j⟩
  have hj : ((cfg3.win 4).blk t).view.emb (ix2 r q) = ix2 (row t r) q := by
    funext a; apply Fin.ext
    match a with
    | ⟨0, _⟩ => show win3_4.index t (0 : Fin 2) * 2000 + 1 * r.val = t.val * 2000 + r.val; omega
    | ⟨1, _⟩ => show win3_4.index t (1 : Fin 2) * 16 + 1 * q.val = q.val; omega
  show k3_pay2 (iblk3 V c 0 t) (iblk3 V c 1 t) (iblk3 V c 2 t) (ix2 r q)
    = proj (feat (V c main_v32)) (V c main_arg6) b (((cfg3.win 4).blk t).view.emb (ix2 r q))
  rw [hj, proj_ix]
  refine (FinalPay.pay2_at _ _ _ r q).trans ?_
  refine congr (congrArg HAdd.hAdd (Finset.sum_congr rfl fun k _ => ?_)) ?_
  · exact congr (congrArg HMul.hMul (pay1_blk V c t r k)) (blk1_at V c t k q)
  · exact (blk2_at V c t 0 q).trans (hb q)

/-- An index of the first result array is in point t's block iff each coordinate is in the block's range on its axis. -/
theorem mem_blk3 (t : Fin cfg3.N) (i : S100000x64.Idx) :
    i ∈ ((cfg3.win 3).blk t).view.set ↔ ∀ a : Fin 2, win3_3.index t a * S2000x64.size a ≤ (i a).val
      ∧ (i a).val < win3_3.index t a * S2000x64.size a + S2000x64.size a := by
  show i ∈ ((View.whole main_v34_0).slice (win3_3.rect t)).set ↔ _
  rw [View.set_slice_whole, Rect.mem_set_unit]
  exact Iff.rfl

/-- The same for the second result array. -/
theorem mem_blk4 (t : Fin cfg3.N) (i : S100000x16.Idx) :
    i ∈ ((cfg3.win 4).blk t).view.set ↔ ∀ a : Fin 2, win3_4.index t a * S2000x16.size a ≤ (i a).val
      ∧ (i a).val < win3_4.index t a * S2000x16.size a + S2000x16.size a := by
  show i ∈ ((View.whole main_v34_1).slice (win3_4.rect t)).set ↔ _
  rw [View.set_slice_whole, Rect.mem_set_unit]
  exact Iff.rfl

/-- The 50 blocks tile the first result array: row i₀ lies in the block of point i₀ / 2000. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 50 := N_3
  obtain ⟨t, ht⟩ : ∃ t : Fin cfg3.N, t.val = (i 0).val / 2000 := ⟨⟨(i 0).val / 2000, by omega⟩, rfl⟩
  obtain ⟨-, -, -, -, -, -, e30, e31, -⟩ := idx t
  refine ⟨t, flush3_3 t, ?_⟩
  rw [mem_blk3]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 64 ≤ (i 1).val ∧ (i 1).val < win3_3.index t (1 : Fin 2) * 64 + 64
    omega

/-- The 50 blocks tile the second result array likewise. -/
theorem cover4 (i : S100000x16.Idx) :
    ∃ t : Fin cfg3.N, (cfg3.win 4).flush t = true ∧ i ∈ ((cfg3.win 4).blk t).view.set := by
  have hi0 : (i 0).val < 100000 := (i 0).isLt
  have hi1 : (i 1).val < 16 := (i 1).isLt
  have hN : cfg3.N = 50 := N_3
  obtain ⟨t, ht⟩ : ∃ t : Fin cfg3.N, t.val = (i 0).val / 2000 := ⟨⟨(i 0).val / 2000, by omega⟩, rfl⟩
  obtain ⟨-, -, -, -, -, -, -, -, e40, e41⟩ := idx t
  refine ⟨t, flush3_4 t, ?_⟩
  rw [mem_blk4]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 16 ≤ (i 1).val ∧ (i 1).val < win3_4.index t (1 : Fin 2) * 16 + 16
    omega

/-- The first result array after the call: the normalised features. -/
theorem final_feat (c : Dev nD) : (dat3 V c).arrAt 3 cfg3.N = feat (V c main_v32) :=
  (dat3 V c).arrAt_eq_of_cover 3 _ (fun t _ => flushed3_eq V c t) cover3

/-- The second result array after the call: the projection of the normalised features, for any bias vector b the
staged bias row spells. -/
theorem final_proj (c : Dev nD) (b : (⟨1, ![16]⟩ : Shape).Idx → EReal) (hb : ∀ q : Fin 16, V c main_v33 (ix2 (0 : Fin 1) q) = b (ix1 q)) :
    (dat3 V c).arrAt 4 cfg3.N = proj (feat (V c main_v32)) (V c main_arg6) b :=
  (dat3 V c).arrAt_eq_of_cover 4 _ (fun t _ => flushed4_eq V c b hb t) cover4

end Cert.KernelIdeal.R3

end
-- ==== Proof.Chain.lean ====
/-
  The buffers at each boundary of the idealized kernel's run, as functions of the launch memory.

  The run alternates a stretch of host operations with a pallas_call, four times.  Walking the boundaries in order:
  the first stretch leaves the neighbour sum of the input features, the first call leaves the first layer h₁; the
  second stretch leaves the neighbour sum of h₁, the second call leaves h₂; likewise h₃; the last stretch re-lays the
  bias as a row and the last call leaves the normalised features and their projection.  The edge arrays and the
  weights are written by nothing, so every boundary finds them as launched.
-/
import proofs.«129091_j24154896073106_1_alg».proof.Proof.Gen.KernelIdeal.Frame
import proofs.«129091_j24154896073106_1_alg».proof.Proof.HostSteps
import proofs.«129091_j24154896073106_1_alg».proof.Proof.Region0
import proofs.«129091_j24154896073106_1_alg».proof.Proof.Region1
import proofs.«129091_j24154896073106_1_alg».proof.Proof.Region2
import proofs.«129091_j24154896073106_1_alg».proof.Proof.Region3
import proofs.«129091_j24154896073106_1_alg».proof.Proof.Net
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Cert.GinSpec Cert.GinNet
open Idealize.ShloMosaic.Pipeline (Dat)

variable (m : (ℓ : Loc nD τ sig) → Buf (Elt Ideal) ℓ) (ρ : Dev nD → PrngReg) (c : Dev nD)

/-! ## After the first stretch -/
theorem w1_arg0 : W1 m ρ c (Proc.devRef .tc main_arg0) = m ((c : Thread nD τ).loc main_arg0) := HostSteps.keep0_main_arg0 (W0 m ρ c)
theorem w1_arg1 : W1 m ρ c (Proc.devRef .tc main_arg1) = m ((c : Thread nD τ).loc main_arg1) := HostSteps.keep0_main_arg1 (W0 m ρ c)
theorem w1_arg2 : W1 m ρ c (Proc.devRef .tc main_arg2) = m ((c : Thread nD τ).loc main_arg2) := HostSteps.keep0_main_arg2 (W0 m ρ c)
theorem w1_arg3 : W1 m ρ c (Proc.devRef .tc main_arg3) = m ((c : Thread nD τ).loc main_arg3) := HostSteps.keep0_main_arg3 (W0 m ρ c)
theorem w1_arg4 : W1 m ρ c (Proc.devRef .tc main_arg4) = m ((c : Thread nD τ).loc main_arg4) := HostSteps.keep0_main_arg4 (W0 m ρ c)
theorem w1_arg5 : W1 m ρ c (Proc.devRef .tc main_arg5) = m ((c : Thread nD τ).loc main_arg5) := HostSteps.keep0_main_arg5 (W0 m ρ c)
theorem w1_arg6 : W1 m ρ c (Proc.devRef .tc main_arg6) = m ((c : Thread nD τ).loc main_arg6) := HostSteps.keep0_main_arg6 (W0 m ρ c)
theorem w1_arg7 : W1 m ρ c (Proc.devRef .tc main_arg7) = m ((c : Thread nD τ).loc main_arg7) := HostSteps.keep0_main_arg7 (W0 m ρ c)
theorem w1_v9 : W1 m ρ c (Proc.devRef .tc main_v9) = seg (m ((c : Thread nD τ).loc main_arg0)) (m ((c : Thread nD τ).loc main_arg1)) (m ((c : Thread nD τ).loc main_arg2)) := HostSteps.seg0 (W0 m ρ c)

/-! ## After the first call: the first layer -/
theorem w2_v10 : W2 m ρ c (Proc.devRef .tc main_v10) = h1 (m ((c : Thread nD τ).loc main_arg0)) (m ((c : Thread nD τ).loc main_arg1)) (m ((c : Thread nD τ).loc main_arg2)) (m ((c : Thread nD τ).loc main_arg3)) :=
  (W2_arr m ρ c 3).trans ((R0.final (V1 m ρ) c).trans (by
    show layer (W1 m ρ c (Proc.devRef .tc main_arg0)) (W1 m ρ c (Proc.devRef .tc main_v9)) (W1 m ρ c (Proc.devRef .tc main_arg3)) = _
    rw [w1_arg0, w1_v9, w1_arg3]; unfold h1; rfl))
theorem w2_arg1 : W2 m ρ c (Proc.devRef .tc main_arg1) = m ((c : Thread nD τ).loc main_arg1) := (W2_of_ne m ρ c main_arg1 (by decide)).trans (w1_arg1 m ρ c)
theorem w2_arg2 : W2 m ρ c (Proc.devRef .tc main_arg2) = m ((c : Thread nD τ).loc main_arg2) := (W2_of_ne m ρ c main_arg2 (by decide)).trans (w1_arg2 m ρ c)
theorem w2_arg4 : W2 m ρ c (Proc.devRef .tc main_arg4) = m ((c : Thread nD τ).loc main_arg4) := (W2_of_ne m ρ c main_arg4 (by decide)).trans (w1_arg4 m ρ c)
theorem w2_arg5 : W2 m ρ c (Proc.devRef .tc main_arg5) = m ((c : Thread nD τ).loc main_arg5) := (W2_of_ne m ρ c main_arg5 (by decide)).trans (w1_arg5 m ρ c)
theorem w2_arg6 : W2 m ρ c (Proc.devRef .tc main_arg6) = m ((c : Thread nD τ).loc main_arg6) := (W2_of_ne m ρ c main_arg6 (by decide)).trans (w1_arg6 m ρ c)
theorem w2_arg7 : W2 m ρ c (Proc.devRef .tc main_arg7) = m ((c : Thread nD τ).loc main_arg7) := (W2_of_ne m ρ c main_arg7 (by decide)).trans (w1_arg7 m ρ c)

/-! ## After the second stretch -/
theorem w3_v10 : W3 m ρ c (Proc.devRef .tc main_v10) = h1 (m ((c : Thread nD τ).loc main_arg0)) (m ((c : Thread nD τ).loc main_arg1)) (m ((c : Thread nD τ).loc main_arg2)) (m ((c : Thread nD τ).loc main_arg3)) := (HostSteps.keep1_main_v10 (W2 m ρ c)).trans (w2_v10 m ρ c)
theorem w3_arg1 : W3 m ρ c (Proc.devRef .tc main_arg1) = m ((c : Thread nD τ).loc main_arg1) := (HostSteps.keep1_main_arg1 (W2 m ρ c)).trans (w2_arg1 m ρ c)
theorem w3_arg2 : W3 m ρ c (Proc.devRef .tc main_arg2) = m ((c : Thread nD τ).loc main_arg2) := (HostSteps.keep1_main_arg2 (W2 m ρ c)).trans (w2_arg2 m ρ c)
theorem w3_arg4 : W3 m ρ c (Proc.devRef .tc main_arg4) = m ((c : Thread nD τ).loc main_arg4) := (HostSteps.keep1_main_arg4 (W2 m ρ c)).trans (w2_arg4 m ρ c)
theorem w3_arg5 : W3 m ρ c (Proc.devRef .tc main_arg5) = m ((c : Thread nD τ).loc main_arg5) := (HostSteps.keep1_main_arg5 (W2 m ρ c)).trans (w2_arg5 m ρ c)
theorem w3_arg6 : W3 m ρ c (Proc.devRef .tc main_arg6) = m ((c : Thread nD τ).loc main_arg6) := (HostSteps.keep1_main_arg6 (W2 m ρ c)).trans (w2_arg6 m ρ c)
theorem w3_arg7 : W3 m ρ c (Proc.devRef .tc main_arg7) = m ((c : Thread nD τ).loc main_arg7) := (HostSteps.keep1_main_arg7 (W2 m ρ c)).trans (w2_arg7 m ρ c)
theorem w3_v20 : W3 m ρ c (Proc.devRef .tc main_v20) = seg (h1 (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg2)) :=
  (HostSteps.seg1 (W2 m ρ c)).trans (by rw [w2_v10, w2_arg1, w2_arg2])

/-! ## After the second call: the second layer -/
theorem w4_v21 : W4 m ρ c (Proc.devRef .tc main_v21) = h2 (m ((c : Thread nD τ).loc main_arg0)) (m ((c : Thread nD τ).loc main_arg1)) (m ((c : Thread nD τ).loc main_arg2)) (m ((c : Thread nD τ).loc main_arg3)) (m ((c : Thread nD τ).loc main_arg4)) :=
  (W4_arr m ρ c 3).trans ((R1.final (V3 m ρ) c).trans (by
    show layer (W3 m ρ c (Proc.devRef .tc main_v10)) (W3 m ρ c (Proc.devRef .tc main_v20)) (W3 m ρ c (Proc.devRef .tc main_arg4)) = _
    rw [w3_v10, w3_v20, w3_arg4]; unfold h2; rfl))
theorem w4_arg1 : W4 m ρ c (Proc.devRef .tc main_arg1) = m ((c : Thread nD τ).loc main_arg1) := (W4_of_ne m ρ c main_arg1 (by decide)).trans (w3_arg1 m ρ c)
theorem w4_arg2 : W4 m ρ c (Proc.devRef .tc main_arg2) = m ((c : Thread nD τ).loc main_arg2) := (W4_of_ne m ρ c main_arg2 (by decide)).trans (w3_arg2 m ρ c)
theorem w4_arg5 : W4 m ρ c (Proc.devRef .tc main_arg5) = m ((c : Thread nD τ).loc main_arg5) := (W4_of_ne m ρ c main_arg5 (by decide)).trans (w3_arg5 m ρ c)
theorem w4_arg6 : W4 m ρ c (Proc.devRef .tc main_arg6) = m ((c : Thread nD τ).loc main_arg6) := (W4_of_ne m ρ c main_arg6 (by decide)).trans (w3_arg6 m ρ c)
theorem w4_arg7 : W4 m ρ c (Proc.devRef .tc main_arg7) = m ((c : Thread nD τ).loc main_arg7) := (W4_of_ne m ρ c main_arg7 (by decide)).trans (w3_arg7 m ρ c)

/-! ## After the third stretch -/
theorem w5_v21 : W5 m ρ c (Proc.devRef .tc main_v21) = h2 (m ((c : Thread nD τ).loc main_arg0)) (m ((c : Thread nD τ).loc main_arg1)) (m ((c : Thread nD τ).loc main_arg2)) (m ((c : Thread nD τ).loc main_arg3)) (m ((c : Thread nD τ).loc main_arg4)) := (HostSteps.keep2_main_v21 (W4 m ρ c)).trans (w4_v21 m ρ c)
theorem w5_arg5 : W5 m ρ c (Proc.devRef .tc main_arg5) = m ((c : Thread nD τ).loc main_arg5) := (HostSteps.keep2_main_arg5 (W4 m ρ c)).trans (w4_arg5 m ρ c)
theorem w5_arg6 : W5 m ρ c (Proc.devRef .tc main_arg6) = m ((c : Thread nD τ).loc main_arg6) := (HostSteps.keep2_main_arg6 (W4 m ρ c)).trans (w4_arg6 m ρ c)
theorem w5_arg7 : W5 m ρ c (Proc.devRef .tc main_arg7) = m ((c : Thread nD τ).loc main_arg7) := (HostSteps.keep2_main_arg7 (W4 m ρ c)).trans (w4_arg7 m ρ c)
theorem w5_v31 : W5 m ρ c (Proc.devRef .tc main_v31) = seg (h2 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) :=
  (HostSteps.seg2 (W4 m ρ c)).trans (by rw [w4_v21, w4_arg1, w4_arg2])

/-! ## After the third call: the third layer -/
theorem w6_v32 : W6 m ρ c (Proc.devRef .tc main_v32) = h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 3).trans ((R2.final (V5 m ρ) c).trans (by
    show layer (W5 m ρ c (Proc.devRef .tc main_v21)) (W5 m ρ c (Proc.devRef .tc main_v31)) (W5 m ρ c (Proc.devRef .tc main_arg5)) = _
    rw [w5_v21, w5_v31, w5_arg5]; unfold h3; rfl))
theorem w6_arg6 : W6 m ρ c (Proc.devRef .tc main_arg6) = m ((c : Thread nD τ).loc main_arg6) := (W6_of_ne m ρ c main_arg6 (by decide)).trans (w5_arg6 m ρ c)
theorem w6_arg7 : W6 m ρ c (Proc.devRef .tc main_arg7) = m ((c : Thread nD τ).loc main_arg7) := (W6_of_ne m ρ c main_arg7 (by decide)).trans (w5_arg7 m ρ c)

/-! ## After the last stretch -/
theorem w7_v32 : W7 m ρ c (Proc.devRef .tc main_v32) = h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (HostSteps.keep3_main_v32 (W6 m ρ c)).trans (w6_v32 m ρ c)
theorem w7_arg6 : W7 m ρ c (Proc.devRef .tc main_arg6) = m ((c : Thread nD τ).loc main_arg6) := (HostSteps.keep3_main_arg6 (W6 m ρ c)).trans (w6_arg6 m ρ c)
/-- The bias row at (0, q) is the bias at q: positions 0 · 16 + q and q of the two row-major orders. -/
theorem w7_v33 (q : Fin 16) : W7 m ρ c (Proc.devRef .tc main_v33) (ix2 (0 : Fin 1) q) = (m ((c : Thread nD τ).loc main_arg7)) (ix1 q) := by
  rw [show W7 m ρ c (Proc.devRef .tc main_v33) = shapeCast S1x16 (W6 m ρ c (Proc.devRef .tc main_arg7)) shapeCasts_S16_S1x16 from HostSteps.bias3 (W6 m ρ c), w6_arg7]
  refine shapeCast_apply _ shapeCasts_S16_S1x16 (ix2 (0 : Fin 1) q) (ix1 q) ?_
  rw [Shape.rowMajor_val_two, Shape.rowMajor_val_one]
  show q.val = 0 * 16 + q.val
  omega

/-! ## After the last call: the two results -/
theorem w8_feat : W8 m ρ c (Proc.devRef .tc main_v34_0) = featOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 3).trans ((R3.final_feat (V7 m ρ) c).trans (by
    show feat (W7 m ρ c (Proc.devRef .tc main_v32)) = _
    rw [w7_v32]; unfold featOut; rfl))

theorem w8_proj : W8 m ρ c (Proc.devRef .tc main_v34_1) = projOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 4).trans ((R3.final_proj (V7 m ρ) c (m ((c : Thread nD τ).loc main_arg7)) (w7_v33 m ρ c)).trans (by
    show proj (feat (W7 m ρ c (Proc.devRef .tc main_v32))) (W7 m ρ c (Proc.devRef .tc main_arg6)) _ = _
    rw [w7_v32, w7_arg6]; unfold projOut featOut; rfl))

end Cert.KernelIdeal.Chain

end
-- ==== Proof.RefBridge.lean ====
/-
  The reference program's stages are the specification's functions, over the extended reals.

  The reference computes, three times, the neighbour sum of the current features (one chain of gather and
  scatter-add, the same term as `seg`), adds it to the features, multiplies by a weight matrix and clamps at 0:
  entry (p, q) of that is max (Σ k, (h (p, k) + a (p, k)) * w (k, q)) 0, which is `layer h a w`.  It then divides
  each row by max (√(0 + Σ k, h (p, k) * h (p, k))) ε — the row norm clamped by the shared literal ε, broadcast
  along the row — which is `feat h`, and finally forms (Σ k, f (p, k) * w (k, q)) + b q, which is `proj f w b`.
  Each equation is read entry by entry; nothing is reassociated and no literal is evaluated except the zero
  that starts the row sum and the zero of the clamp.
-/
import proofs.«129091_j24154896073106_1_alg».proof.Proof.Gen.ReferenceIdeal.Read
import proofs.«129091_j24154896073106_1_alg».proof.Proof.Net
import proofs.«129091_j24154896073106_1_alg».proof.Proof.LibDotApply

noncomputable section

namespace Cert.ReferenceIdeal.Bridge

open Cert.ReferenceIdeal Cert.ReferenceIdeal.Gen Cert.ReferenceIdeal.Read Idealize.ShloMosaic Idealize.ShloMosaic.ValueIdx Cert.GinSpec Cert.GinNet

variable (x0 : Feat) (x1 x2 : Edge) (x3 x4 x5 : Wt)
  (x6 : (⟨S64x16, .f32⟩ : BufTy).Contents (Elt Ideal)) (x7 : (⟨S16, .f32⟩ : BufTy).Contents (Elt Ideal))

/-- The first neighbour sum is the shared gather/scatter-add chain applied to the input features. -/
theorem v9_eq : val_main_v9 (F := Ideal) x0 x1 x2 = seg x0 x1 x2 := by
  unfold val_main_v9 val_main_v8 val_main_v7 val_main_v6 val_main_v5 val_main_v4 val_main_v3 val_main_v2 val_main_v1
    val_main_v0 val_main_c val_main_c_0 val_main_cst seg
  rfl

/-- The second neighbour sum is the same chain applied to the first layer's output. -/
theorem v22_eq : val_main_v22 (F := Ideal) x0 x1 x2 x3 = seg (val_main_v12 (F := Ideal) x0 x1 x2 x3) x1 x2 := by
  unfold val_main_v22 val_main_v21 val_main_v20 val_main_v19 val_main_v18 val_main_v17 val_main_v16 val_main_v15 val_main_v14
    val_main_v13 val_main_c_1 val_main_c_2 val_main_cst_3 seg
  rfl

/-- The third neighbour sum is the same chain applied to the second layer's output. -/
theorem v35_eq : val_main_v35 (F := Ideal) x0 x1 x2 x3 x4 = seg (val_main_v25 (F := Ideal) x0 x1 x2 x3 x4) x1 x2 := by
  unfold val_main_v35 val_main_v34 val_main_v33 val_main_v32 val_main_v31 val_main_v30 val_main_v29 val_main_v28 val_main_v27
    val_main_v26 val_main_c_4 val_main_c_5 val_main_cst_6 seg
  rfl

/-- The broadcast zero literal is 0 at every entry. -/
private theorem zero_apply (i : S100000x64.Idx) :
    broadcastInDim S100000x64 ![] bcast_S_S100000x64 (constant (F := Ideal) S_ .f32 0x00000000#32) i = 0 := by
  rw [broadcastInDim_apply _ bcast_S_S100000x64 _ i (fun a => a.elim0) (fun a => a.elim0)]
  exact Ideal.ofBits_zero_f32

/-- One layer of the reference — add the neighbour sum, multiply by the weights, clamp at the broadcast zero —
    is `layer`: at entry (p, q) both are max (Σ k, (h (p, k) + a (p, k)) * w (k, q)) 0. -/
private theorem layer_bridge (h a : FVec Ideal S100000x64 .f32) (w : FVec Ideal S64x64 .f32) :
    maximumf (Host.dotGeneral dot_S100000x64_S64x64_S100000x64_1_0_0_1_n_n none (addf h a) w)
      (broadcastInDim S100000x64 ![] bcast_S_S100000x64 (constant (F := Ideal) S_ .f32 0x00000000#32)) = layer h a w := by
  funext i
  obtain ⟨p, q, rfl⟩ : ∃ (p : Fin 100000) (q : Fin 64), i = ix2 p q := ⟨i 0, i 1, eq_ix2 i⟩
  show FloatOps.maximumf (Host.dotGeneral dot_S100000x64_S64x64_S100000x64_1_0_0_1_n_n none (addf h a) w (ix2 p q))
      (broadcastInDim S100000x64 ![] bcast_S_S100000x64 (constant (F := Ideal) S_ .f32 0x00000000#32) (ix2 p q)) = _
  rw [zero_apply, layer_ix]
  unfold layerAt
  simp only [Host.dotGeneral]
  rw [Cert.LibDotApply.dotGeneral_apply dot_S100000x64_S64x64_S100000x64_1_0_0_1_n_n ⟨rfl, rfl, rfl, rfl, rfl, rfl⟩]
  rfl

/-- The first layer's output. -/
theorem v12_eq : val_main_v12 (F := Ideal) x0 x1 x2 x3 = layer x0 (val_main_v9 (F := Ideal) x0 x1 x2) x3 := by
  unfold val_main_v12 val_main_v11 val_main_v10 val_main_call0_v0 val_main_call0_cst
  exact layer_bridge x0 (val_main_v9 (F := Ideal) x0 x1 x2) x3

/-- The second layer's output. -/
theorem v25_eq : val_main_v25 (F := Ideal) x0 x1 x2 x3 x4
    = layer (val_main_v12 (F := Ideal) x0 x1 x2 x3) (val_main_v22 (F := Ideal) x0 x1 x2 x3) x4 := by
  unfold val_main_v25 val_main_v24 val_main_v23 val_main_call1_v0 val_main_call1_cst
  exact layer_bridge (val_main_v12 (F := Ideal) x0 x1 x2 x3) (val_main_v22 (F := Ideal) x0 x1 x2 x3) x4

/-- The third layer's output. -/
theorem v38_eq : val_main_v38 (F := Ideal) x0 x1 x2 x3 x4 x5
    = layer (val_main_v25 (F := Ideal) x0 x1 x2 x3 x4) (val_main_v35 (F := Ideal) x0 x1 x2 x3 x4) x5 := by
  unfold val_main_v38 val_main_v37 val_main_v36 val_main_call2_v0 val_main_call2_cst
  exact layer_bridge (val_main_v25 (F := Ideal) x0 x1 x2 x3 x4) (val_main_v35 (F := Ideal) x0 x1 x2 x3 x4) x5

/-- The row normalisation: entry (p, q) is h (p, q) divided by the clamped norm of row p, the row sum of squares
    starting from the zero literal (0 + Σ = Σ) and the clamp the literal ε on both sides. -/
theorem v43_eq : val_main_v43 (F := Ideal) x0 x1 x2 x3 x4 x5 = feat (val_main_v38 (F := Ideal) x0 x1 x2 x3 x4 x5) := by
  funext i
  obtain ⟨p, q, rfl⟩ : ∃ (p : Fin 100000) (q : Fin 64), i = ix2 p q := ⟨i 0, i 1, eq_ix2 i⟩
  rw [val_main_v43_apply, val_main_v42_apply, val_main_v41_apply, val_main_v39_apply, val_main_call3_v2_apply,
    val_main_call3_v1_apply, val_main_v40_apply, val_main_cst_7_apply, val_main_call3_cst_apply, feat_ix]
  unfold nrm eps
  rw [Ideal.hostDivf_def, Ideal.maximumf_def, Ideal.hostUnary_sqrt_def, Ideal.ofBits_def, Ideal.ofBits_def,
    Ideal.ofBits_zero_f32, zero_add]
  have e : ∀ k : Fin 64, idx_main_call3_v1 (idx_main_call3_v2 (idx_main_v42 (ix2 p q))) k = ix2 p k := fun k =>
    funext fun a => Fin.ext (by match a with | ⟨0, _⟩ => rfl | ⟨1, _⟩ => rfl)
  simp only [e, val_main_call3_v0_apply, Ideal.mulf_def]

/-- The projection: entry (p, q) is (Σ k, f (p, k) * w (k, q)) + b q, the bias broadcast along the rows. -/
theorem v47_eq : val_main_v47 (F := Ideal) x0 x1 x2 x3 x4 x5 x6 x7
    = proj (val_main_v43 (F := Ideal) x0 x1 x2 x3 x4 x5) x6 x7 := by
  funext i
  obtain ⟨p, q, rfl⟩ : ∃ (p : Fin 100000) (q : Fin 16), i = ix2 p q := ⟨i 0, i 1, eq_ix2 i⟩
  rw [val_main_v47_apply, val_main_v46_apply, val_main_v45_apply, proj_ix, Ideal.addf_def]
  have e : idx_main_v45 (idx_main_v46 (ix2 p q)) = ix1 q := funext fun a => Fin.ext (by match a with | ⟨0, _⟩ => rfl)
  rw [e]
  unfold val_main_v44
  simp only [Host.dotGeneral]
  rw [Cert.LibDotApply.dotGeneral_apply dot_S100000x64_S64x16_S100000x16_1_0_0_1_n_n ⟨rfl, rfl, rfl, rfl, rfl, rfl⟩]

/-- The reference's second result is the network's normalised features. -/
theorem featOut_eq : val_main_v43 (F := Ideal) x0 x1 x2 x3 x4 x5 = featOut x0 x1 x2 x3 x4 x5 := by
  unfold featOut h3 h2 h1
  rw [v43_eq, v38_eq, v35_eq, v25_eq, v22_eq, v12_eq, v9_eq]

/-- The reference's first result is the network's projected output. -/
theorem projOut_eq : val_main_v47 (F := Ideal) x0 x1 x2 x3 x4 x5 x6 x7 = projOut x0 x1 x2 x3 x4 x5 x6 x7 := by
  unfold projOut
  rw [v47_eq, featOut_eq]

end Cert.ReferenceIdeal.Bridge

end
-- ==== Proof.lean ====
/-
  The kernel against its reference, over the extended reals.

  The kernel runs a three-layer graph network as four pallas_calls: each layer's combine
  relu ((h + agg) · W) tiled over blocks of 2000 node rows, with the neighbour sums agg formed by the host's
  gather and scatter-add between the calls, then a last call that normalises each row by its clamped
  Euclidean norm and projects it.  The reference does the same with whole-array operations.  Over the extended
  reals a change of float format is the identity, a matrix product into a zero accumulator is the plain sum over
  the contracted coordinate, and a lane sum is the plain sum, so both programs compute, entry by entry, the same
  sums, maxima, square roots and quotients of the same arrays; the neighbour sum is the same chain of host
  operations on both sides and is carried as one function.  No law that needs finiteness is used.
-/
import proofs.«129091_j24154896073106_1_alg».proof.Defs
import proofs.«129091_j24154896073106_1_alg».proof.Proof.Gen.Kernel
import proofs.«129091_j24154896073106_1_alg».proof.Proof.Gen.Kernel.Frame
import proofs.«129091_j24154896073106_1_alg».proof.Proof.Gen.KernelIdeal
import proofs.«129091_j24154896073106_1_alg».proof.Proof.Gen.KernelIdeal.Frame
import proofs.«129091_j24154896073106_1_alg».proof.Proof.Gen.ReferenceIdeal
import proofs.«129091_j24154896073106_1_alg».proof.Proof.Gen.Pre_finite_inputs
import proofs.«129091_j24154896073106_1_alg».proof.Proof.Gen.ReferenceIdeal.Run
import proofs.«129091_j24154896073106_1_alg».proof.Proof.Gen.ReferenceIdeal.Read
import proofs.«129091_j24154896073106_1_alg».proof.Proof.KernelRun
import proofs.«129091_j24154896073106_1_alg».proof.Proof.Chain
import proofs.«129091_j24154896073106_1_alg».proof.Proof.RefBridge
import Idealize.ShloMosaic.Adequacy
import Idealize.ShloMosaic.Init

noncomputable section

namespace Cert.Proof

open Idealize.ShloMosaic Idealize.SL.Sem

/-- The word-level kernel terminates without a fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two idealized programs, run from memories that agree on the arguments, end with the same two results:
    the projection and the normalised features of the three-layer network of the argument arrays. -/
theorem algebraic : Cert.algebraic_KernelIdeal_ReferenceIdeal := by
  intro m ρ m' ρ' _ hagree
  refine ⟨fun c => Cert.GinNet.projOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.GinNet.featOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.w8_proj m ρ c), (h c).2.1.trans (Cert.KernelIdeal.Chain.w8_feat m ρ c), (h c).2.2⟩)
      (Cert.KernelIdeal.KRun.run_named m ρ)
  · refine (θ_run Cert.ReferenceIdeal.defs _ _).mono (fun r h c => ⟨?_, ?_, (h c).2.2⟩)
      (Cert.ReferenceIdeal.Value.run (F := Ideal) m' ρ')
    · obtain ⟨e0, e1, e2, e3, e4, e5, e6, e7⟩ := hagree c
      rw [(h c).1, Cert.ReferenceIdeal.Read.val_main_v47_eq, Cert.ReferenceIdeal.Bridge.projOut_eq, e0, e1, e2, e3, e4, e5, e6, e7]
    · obtain ⟨e0, e1, e2, e3, e4, e5, e6, e7⟩ := hagree c
      rw [(h c).2.1, Cert.ReferenceIdeal.Read.val_main_v43_eq, Cert.ReferenceIdeal.Bridge.featOut_eq, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
